-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x2048 : Shape := ⟨3, ![64, 1024, 2048]⟩
abbrev S_ : Shape := ⟨0, ![]⟩

class Facts : Prop where
  bcast_S_S64x1024x2048 : S_.BroadcastsInDim S64x1024x2048 (![] : Fin 0 → Fin S64x1024x2048.rank)
  reducesTo_S64x1024x2048_S_d0_1_2 : S64x1024x2048.ReducesTo [0, 1, 2] S_
  h_S_ : 0 < S_.numel

variable [Facts]

def fn {F : FTy → Type} [FloatOps F] (main_arg0 : FVec F S64x1024x2048 .f32) : IVec S_ 1 :=
  let main_v0 : FVec F S64x1024x2048 .f32 := Host.absf main_arg0
  let main_cst : FVec F S_ .f32 := constant S_ .f32 0x7F800000#32
  let main_v1 : FVec F S64x1024x2048 .f32 := broadcastInDim S64x1024x2048 ![] bcast_S_S64x1024x2048 main_cst
  let main_v2 : IVec S64x1024x2048 1 := cmpf .olt main_v0 main_v1
  let main_c : IVec S_ 1 := constantI S_ 1 1#1
  let main_v3 : IVec S_ 1 := (fun x v => Host.reduce IntOp.andi x v reducesTo_S64x1024x2048_S_d0_1_2 h_S_) main_v2 main_c
  main_v3
-- ==== Kernel.lean ====
abbrev S64x1024x2048 : Shape := ⟨3, ![64, 1024, 2048]⟩
abbrev S_ : Shape := ⟨0, ![]⟩
abbrev S64x1024x3071 : Shape := ⟨3, ![64, 1024, 3071]⟩
abbrev S64x3144704 : Shape := ⟨2, ![64, 3144704]⟩
abbrev S64x3143680 : Shape := ⟨2, ![64, 3143680]⟩
abbrev S64x1024x3070 : Shape := ⟨3, ![64, 1024, 3070]⟩
abbrev S64x1024x2047 : Shape := ⟨3, ![64, 1024, 2047]⟩
abbrev S64x1x2047 : Shape := ⟨3, ![64, 1, 2047]⟩
abbrev S1x1024x2047 : Shape := ⟨3, ![1, 1024, 2047]⟩
abbrev S1x1x2047 : Shape := ⟨3, ![1, 1, 2047]⟩
abbrev S1024x2047 : Shape := ⟨2, ![1024, 2047]⟩
abbrev S2047 : Shape := ⟨1, ![2047]⟩
abbrev S1x2047 : Shape := ⟨2, ![1, 2047]⟩
abbrev S64x2047 : Shape := ⟨2, ![64, 2047]⟩

abbrev nBuf : Space → Nat
  | .hbm => 21
  | .vmem => 4
  | .smem => 0
  | _ => 0

abbrev bufTy : (tb : Table) → Fin (tcTables nBuf tb) → BufTy
  | .hbm, ⟨0, _⟩ => ⟨S64x1024x2048, .f32⟩
  | .hbm, ⟨1, _⟩ => ⟨S_, .i32⟩
  | .hbm, ⟨2, _⟩ => ⟨S_, .f32⟩
  | .hbm, ⟨3, _⟩ => ⟨S64x1024x3071, .f32⟩
  | .hbm, ⟨4, _⟩ => ⟨S64x3144704, .f32⟩
  | .hbm, ⟨5, _⟩ => ⟨S64x3143680, .f32⟩
  | .hbm, ⟨6, _⟩ => ⟨S64x1024x3070, .f32⟩
  | .hbm, ⟨7, _⟩ => ⟨S64x1024x2047, .f32⟩
  | .hbm, ⟨8, _⟩ => ⟨S64x1x2047, .f32⟩
  | .hbm, ⟨9, _⟩ => ⟨S64x2047, .f32⟩
  | .hbm, ⟨10, _⟩ => ⟨S2047, .i32⟩
  | .hbm, ⟨11, _⟩ => ⟨S_, .i32⟩
  | .hbm, ⟨12, _⟩ => ⟨S2047, .i32⟩
  | .hbm, ⟨13, _⟩ => ⟨S2047, .i32⟩
  | .hbm, ⟨14, _⟩ => ⟨S2047, .f32⟩
  | .hbm, ⟨15, _⟩ => ⟨S_, .f32⟩
  | .hbm, ⟨16, _⟩ => ⟨S2047, .f32⟩
  | .hbm, ⟨17, _⟩ => ⟨S2047, .f32⟩
  | .hbm, ⟨18, _⟩ => ⟨S1x2047, .f32⟩
  | .hbm, ⟨19, _⟩ => ⟨S64x2047, .f32⟩
  | .hbm, ⟨20, _⟩ => ⟨S64x2047, .f32⟩
  | .local _ .vmem, ⟨0, _⟩ => ⟨S1x1024x2047, .f32⟩
  | .local _ .vmem, ⟨1, _⟩ => ⟨S1x1024x2047, .f32⟩
  | .local _ .vmem, ⟨2, _⟩ => ⟨S1x1x2047, .f32⟩
  | .local _ .vmem, ⟨3, _⟩ => ⟨S1x1x2047, .f32⟩
  | _, _ => ⟨S64x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2047 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2047 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S64x1024x2048_S64x1024x3071_000_000_010230 : S64x1024x2048.Pads (![0, 0, 0] : Fin 3 → Nat) ![0, 0, 1023] ![0, 0, 0] S64x1024x3071
  h_S_ : 0 < S_.numel
  shapeCasts_S64x1024x3071_S64x3144704 : S64x1024x3071.ShapeCasts S64x3144704
  slices_S64x3144704_S64x3143680_0_1024 : S64x3144704.Slices ![0, 1024] S64x3143680
  shapeCasts_S64x3143680_S64x1024x3070 : S64x3143680.ShapeCasts S64x1024x3070
  slices_S64x1024x3070_S64x1024x2047_0_0_0 : S64x1024x3070.Slices ![0, 0, 0] S64x1024x2047
  inb_S1x1024x2047_S1x1024x2047_0_0_0 : ∀ a, (![0, 0, 0] : Fin 3 → Nat) a + S1x1024x2047.size a ≤ S1x1024x2047.size a
  h_S1x1024x2047 : 0 < S1x1024x2047.numel
  shapeCasts_S1x1024x2047_S1024x2047 : S1x1024x2047.ShapeCasts S1024x2047
  reduces_S1024x2047_S2047 : S1024x2047.Reduces [0] S2047
  shapeCasts_S2047_S1x2047 : S2047.ShapeCasts S1x2047
  inb_S1x1x2047_S1x1x2047_0_0_0 : ∀ a, (![0, 0, 0] : Fin 3 → Nat) a + S1x1x2047.size a ≤ S1x1x2047.size a
  h_S1x1x2047 : 0 < S1x1x2047.numel
  shapeCasts_S1x1x2047_S1x2047 : S1x1x2047.ShapeCasts S1x2047
  shapeCasts_S1x2047_S1x1x2047 : S1x2047.ShapeCasts S1x1x2047
  shapeCasts_S64x1x2047_S64x2047 : S64x1x2047.ShapeCasts S64x2047
  bcast_S_S2047 : S_.BroadcastsInDim S2047 (![] : Fin 0 → Fin S2047.rank)
  bcast_S2047_S1x2047_1 : S2047.BroadcastsInDim S1x2047 (![1] : Fin 1 → Fin S1x2047.rank)
  bcast_S1x2047_S64x2047_0_1 : S1x2047.BroadcastsInDim S64x2047 (![0, 1] : Fin 2 → Fin S64x2047.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2047.size a ≤ S64x1024x2047.size a
  hwx0_0 : ∀ i : grid0.Coords, EltTy.bits .f32 = 32 ∨ (Rect.block (s := S64x1024x2047) S1x1024x2047.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2047.size a ≤ S64x1x2047.size a
  hwx0_1 : ∀ i : grid0.Coords, EltTy.bits .f32 = 32 ∨ (Rect.block (s := S64x1x2047) S1x1x2047.size (cc0_transform_1 i) (hinb0_1 i)).WholeWords (EltTy.packing .f32)

variable [Facts₀]

abbrev win0_0 : Pipeline.Window sig grid0 :=
  Pipeline.Window.ofSpec (Memref.whole main_v4) S1x1024x2047.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x2047.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x2048 : Shape := ⟨3, ![64, 1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x2048 : Shape := ⟨2, ![1024, 2048]⟩
abbrev S2097152 : Shape := ⟨1, ![2097152]⟩
abbrev S64x2097152 : Shape := ⟨2, ![64, 2097152]⟩
abbrev S2097152x64 : Shape := ⟨2, ![2097152, 64]⟩
abbrev S_ : Shape := ⟨0, ![]⟩
abbrev S3071x64 : Shape := ⟨2, ![3071, 64]⟩
abbrev S2097152x1 : Shape := ⟨2, ![2097152, 1]⟩
abbrev S3071 : Shape := ⟨1, ![3071]⟩
abbrev S3071x1 : Shape := ⟨2, ![3071, 1]⟩
abbrev S64x3071 : Shape := ⟨2, ![64, 3071]⟩
abbrev S64x2047 : Shape := ⟨2, ![64, 2047]⟩

abbrev nBuf : Space → Nat
  | .hbm => 26
  | .vmem => 0
  | .smem => 0
  | _ => 0

abbrev bufTy : (tb : Table) → Fin (tcTables nBuf tb) → BufTy
  | .hbm, ⟨0, _⟩ => ⟨S64x1024x2048, .f32⟩
  | .hbm, ⟨1, _⟩ => ⟨S1024, .i32⟩
  | .hbm, ⟨2, _⟩ => ⟨S1024x1, .i32⟩
  | .hbm, ⟨3, _⟩ => ⟨S2048, .i32⟩
  | .hbm, ⟨4, _⟩ => ⟨S1x2048, .i32⟩
  | .hbm, ⟨5, _⟩ => ⟨S1024x2048, .i32⟩
  | .hbm, ⟨6, _⟩ => ⟨S1024x2048, .i32⟩
  | .hbm, ⟨7, _⟩ => ⟨S1024x2048, .i32⟩
  | .hbm, ⟨8, _⟩ => ⟨S2097152, .i32⟩
  | .hbm, ⟨9, _⟩ => ⟨S64x2097152, .f32⟩
  | .hbm, ⟨10, _⟩ => ⟨S2097152x64, .f32⟩
  | .hbm, ⟨11, _⟩ => ⟨S_, .f32⟩
  | .hbm, ⟨12, _⟩ => ⟨S3071x64, .f32⟩
  | .hbm, ⟨13, _⟩ => ⟨S2097152x1, .i32⟩
  | .hbm, ⟨14, _⟩ => ⟨S3071x64, .f32⟩
  | .hbm, ⟨15, _⟩ => ⟨S_, .f32⟩
  | .hbm, ⟨16, _⟩ => ⟨S2097152, .f32⟩
  | .hbm, ⟨17, _⟩ => ⟨S_, .f32⟩
  | .hbm, ⟨18, _⟩ => ⟨S3071, .f32⟩
  | .hbm, ⟨19, _⟩ => ⟨S2097152x1, .i32⟩
  | .hbm, ⟨20, _⟩ => ⟨S3071, .f32⟩
  | .hbm, ⟨21, _⟩ => ⟨S3071x1, .f32⟩
  | .hbm, ⟨22, _⟩ => ⟨S3071x64, .f32⟩
  | .hbm, ⟨23, _⟩ => ⟨S3071x64, .f32⟩
  | .hbm, ⟨24, _⟩ => ⟨S64x3071, .f32⟩
  | .hbm, ⟨25, _⟩ => ⟨S64x2047, .f32⟩
  | _, _ => ⟨S64x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S2048_S1x2048_1 : S2048.BroadcastsInDim S1x2048 (![1] : Fin 1 → Fin S1x2048.rank)
  bcast_S1024x1_S1024x2048_0_1 : S1024x1.BroadcastsInDim S1024x2048 (![0, 1] : Fin 2 → Fin S1024x2048.rank)
  bcast_S1x2048_S1024x2048_0_1 : S1x2048.BroadcastsInDim S1024x2048 (![0, 1] : Fin 2 → Fin S1024x2048.rank)
  shapeCasts_S1024x2048_S2097152 : S1024x2048.ShapeCasts S2097152
  shapeCasts_S64x1024x2048_S64x2097152 : S64x1024x2048.ShapeCasts S64x2097152
  transposes_S64x2097152_S2097152x64_1_0 : S64x2097152.Transposes [1, 0] S2097152x64
  bcast_S_S3071x64 : S_.BroadcastsInDim S3071x64 (![] : Fin 0 → Fin S3071x64.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S3071 : S_.BroadcastsInDim S3071 (![] : Fin 0 → Fin S3071.rank)
  bcast_S3071_S3071x1_0 : S3071.BroadcastsInDim S3071x1 (![0] : Fin 1 → Fin S3071x1.rank)
  bcast_S3071x1_S3071x64_0_1 : S3071x1.BroadcastsInDim S3071x64 (![0, 1] : Fin 2 → Fin S3071x64.rank)
  transposes_S3071x64_S64x3071_1_0 : S3071x64.Transposes [1, 0] S64x3071
  slices_S64x3071_S64x2047_0_1024 : S64x3071.Slices ![0, 1024] S64x2047
  scatter_S3071x64_S2097152x1_S2097152x64_1_0_0_1_wf : ScatterDims.WF S3071x64 S2097152x1 S2097152x64 [1] [0] [0] 1
  scatter_S3071_S2097152x1_S2097152_n_0_0_1_wf : ScatterDims.WF S3071 S2097152x1 S2097152 [] [0] [0] 1

variable [Facts₀]

def scatter_S3071x64_S2097152x1_S2097152x64_1_0_0_1 : ScatterDims S3071x64 S2097152x1 S2097152x64 where
  updateWindowDims := [1]
  insertedWindowDims := [0]
  scatterDimsToOperandDims := [0]
  indexVectorDim := 1
  wf := scatter_S3071x64_S2097152x1_S2097152x64_1_0_0_1_wf
def scatter_S3071_S2097152x1_S2097152_n_0_0_1 : ScatterDims S3071 S2097152x1 S2097152 where
  updateWindowDims := []
  insertedWindowDims := [0]
  scatterDimsToOperandDims := [0]
  indexVectorDim := 1
  wf := scatter_S3071_S2097152x1_S2097152_n_0_0_1_wf

class Facts : Prop extends Facts₀ where

variable [Facts]
-- ==== Proof.LibBcast.lean ====
/-
  Broadcasts of small operands read at an index.

  * A scalar (rank 0) spread over any shape reads the scalar everywhere.
  * A per-channel vector `[c]` seen as `[1, 1, c]` and spread to `[a, b, c]` reads, at `(i, j, k)`, the vector at `k`.
  * A vector `[a]` seen as a column `[a, 1]` and spread to `[a, b]` reads, at `(i, j)`, the vector at `i`;
    a vector `[b]` seen as a row `[1, b]` and spread to `[a, b]` reads the vector at `j`.
-/
import Idealize.ShloMosaic.Lib.Pipeline.Value
import Idealize.ShloMosaic.Lib.ValueIdx

namespace Cert.LibBcast

open Idealize.ShloMosaic Idealize.ShloMosaic.ValueIdx

variable {α : Type}

/-- A rank-0 operand spread over a shape reads its one element at every index. -/
theorem scalar_apply {s : Shape} (dims : Fin 0 → Fin s.rank) (h : (⟨0, ![]⟩ : Shape).BroadcastsInDim s dims)
    (v : (⟨0, ![]⟩ : Shape).Idx → α) (i : s.Idx) : broadcastInDim s dims h v i = v ix0 :=
  broadcastInDim_apply dims h v i ix0 fun a => a.elim0

/-- A vector `[c]` placed on the last axis of `[1, 1, c]`, then spread to `[a, b, c]`: entry `(i, j, k)` is entry `k`. -/
theorem channel_apply {a b c : ℕ} (v : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (i : Fin a) (j : Fin b) (k : Fin c) :
    broadcastInDim ⟨3, ![a, b, c]⟩ (![0, 1, 2] : Fin 3 → Fin 3) h2 (broadcastInDim ⟨3, ![1, 1, c]⟩ (![2] : Fin 1 → Fin 3) h1 v) (ix3 i j k)
      = v (ix1 k) := by
  refine (broadcastInDim_apply _ h2 _ (ix3 i j k) (ix3 (0 : Fin 1) (0 : Fin 1) k) fun ax => ?_).trans
    (broadcastInDim_apply _ h1 v _ (ix1 k) fun ax => ?_)
  · match ax with
    | ⟨0, _⟩ => rfl
    | ⟨1, _⟩ => rfl
    | ⟨2, _⟩ =>
      show k.val = if c = 1 then 0 else k.val
      split
      · have := k.isLt; omega
      · rfl
  · match ax with
    | ⟨0, _⟩ =>
      show k.val = if c = 1 then 0 else k.val
      split
      · have := k.isLt; omega
      · rfl

/-- A vector `[a]` placed on axis 0 of `[a, 1]`, then spread to `[a, b]`: entry `(i, j)` is entry `i`. -/
theorem column_apply {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (i : Fin a) (j : Fin b) :
    broadcastInDim ⟨2, ![a, b]⟩ (![0, 1] : Fin 2 → Fin 2) h2 (broadcastInDim ⟨2, ![a, 1]⟩ (![0] : Fin 1 → Fin 2) h1 v) (ix2 i j)
      = v (ix1 i) := by
  refine (broadcastInDim_apply _ h2 _ (ix2 i j) (ix2 i (0 : Fin 1)) fun ax => ?_).trans
    (broadcastInDim_apply _ h1 v _ (ix1 i) fun ax => ?_)
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector `[b]` placed on axis 1 of `[1, b]`, then spread to `[a, b]`: entry `(i, j)` is entry `j`. -/
theorem row_apply {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (i : Fin a) (j : Fin b) :
    broadcastInDim ⟨2, ![a, b]⟩ (![0, 1] : Fin 2 → Fin 2) h2 (broadcastInDim ⟨2, ![1, b]⟩ (![1] : Fin 1 → Fin 2) h1 v) (ix2 i j)
      = v (ix1 j) := by
  refine (broadcastInDim_apply _ h2 _ (ix2 i j) (ix2 (0 : Fin 1) j) fun ax => ?_).trans
    (broadcastInDim_apply _ h1 v _ (ix1 j) fun ax => ?_)
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

end Cert.LibBcast
-- ==== Proof.Antidiag.lean ====
/-
  Sums along an anti-diagonal of a 1024 × 2048 table.

  The entries (i, j) with i + j = 1024 + k, for k < 2047, are met once each when the table is walked in row-major
  order (position n = 2048·i + j, so i = n / 2048 and j = n % 2048), and once each when the rows are walked and row i
  contributes its entry at column 1024 − i + k whenever that column exists (is below 2048). So the two sums agree
  in any commutative monoid. There are min(1024, 2047 − k) such entries.
-/
import Idealize.ShloMosaic.Lib.ValueIdx
import Idealize.ShloMosaic.PureOps.Ideal

namespace Cert.Antidiag

open scoped BigOperators

/-- The row of a row-major position. -/
abbrev rowOf (n : Fin 2097152) : Fin 1024 := ⟨n.val / 2048, by have := n.isLt; omega⟩
/-- The column of a row-major position. -/
abbrev colOf (n : Fin 2097152) : Fin 2048 := ⟨n.val % 2048, by omega⟩

/-- Row `i`'s contribution to anti-diagonal `1024 + k`: its entry at column `1024 − i + k`, when there is one. -/
def rowTerm {M : Type*} [Zero M] (f : Fin 1024 → Fin 2048 → M) (k : Fin 2047) (i : Fin 1024) : M :=
  if h : 1024 - i.val + k.val < 2048 then f i ⟨1024 - i.val + k.val, h⟩ else 0

/-- In one row, the entries on the anti-diagonal sum to the row's term. -/
theorem sum_row {M : Type*} [AddCommMonoid M] (f : Fin 1024 → Fin 2048 → M) (k : Fin 2047) (i : Fin 1024) :
    (∑ j : Fin 2048, if i.val + j.val = 1024 + k.val then f i j else 0) = rowTerm f k i := by
  have hi := i.isLt
  have hk := k.isLt
  unfold rowTerm
  by_cases h : 1024 - i.val + k.val < 2048
  · rw [dif_pos h, Finset.sum_eq_single (⟨1024 - i.val + k.val, h⟩ : Fin 2048)]
    · rw [if_pos (show i.val + (1024 - i.val + k.val) = 1024 + k.val by omega)]
    · intro j _ hj
      rw [if_neg]
      intro e
      exact hj (Fin.ext (show j.val = 1024 - i.val + k.val by omega))
    · intro hn; exact absurd (Finset.mem_univ _) hn
  · rw [dif_neg h]
    refine Finset.sum_eq_zero fun j _ => if_neg ?_
    have hj := j.isLt
    omega

/-- The anti-diagonal's entries summed over the row-major positions are the rows' terms summed over the rows. -/
theorem sum_positions {M : Type*} [AddCommMonoid M] (f : Fin 1024 → Fin 2048 → M) (k : Fin 2047) :
    (∑ n : Fin 2097152, if n.val / 2048 + n.val % 2048 = 1024 + k.val then f (rowOf n) (colOf n) else 0)
      = ∑ i : Fin 1024, rowTerm f k i := by
  rw [← Equiv.sum_comp (finProdFinEquiv (m := 1024) (n := 2048))
    (fun n : Fin 2097152 => if n.val / 2048 + n.val % 2048 = 1024 + k.val then f (rowOf n) (colOf n) else 0),
    Fintype.sum_prod_type]
  refine Finset.sum_congr rfl fun i _ => ?_
  rw [← sum_row f k i]
  refine Finset.sum_congr rfl fun j _ => ?_
  have hi := i.isLt
  have hj := j.isLt
  have hv : (finProdFinEquiv (m := 1024) (n := 2048) (i, j)).val = j.val + 2048 * i.val := rfl
  have hr : rowOf (finProdFinEquiv (m := 1024) (n := 2048) (i, j)) = i := Fin.ext (by show _ / 2048 = i.val; rw [hv]; omega)
  have hc : colOf (finProdFinEquiv (m := 1024) (n := 2048) (i, j)) = j := Fin.ext (by show _ % 2048 = j.val; rw [hv]; omega)
  rw [hr, hc, hv]
  exact if_congr (by omega) rfl rfl

/-- How many entries the anti-diagonal `1024 + k` has: every row from `k − 1023` on has one. -/
theorem count (k : Fin 2047) :
    (∑ i : Fin 1024, rowTerm (fun _ _ => (1 : EReal)) k i) = ((min 1024 (2047 - k.val) : ℕ) : EReal) := by
  have hk := k.isLt
  have e1 : ∀ i : Fin 1024, rowTerm (fun _ _ => (1 : EReal)) k i = if 1024 - i.val + k.val < 2048 then 1 else 0 := by
    intro i; unfold rowTerm; exact dite_eq_ite
  rw [Finset.sum_congr rfl fun i _ => e1 i,
    Fin.sum_univ_eq_sum_range (fun i => if 1024 - i + k.val < 2048 then (1 : EReal) else 0) 1024, Finset.sum_boole]
  have e2 : (Finset.range 1024).filter (fun i => 1024 - i + k.val < 2048) = Finset.Ico (k.val - 1023) 1024 := by
    ext i; simp only [Finset.mem_filter, Finset.mem_range, Finset.mem_Ico]; omega
  rw [e2, Nat.card_Ico]
  congr 1; omega

end Cert.Antidiag
-- ==== Proof.HankelSpec.lean ====
/-
  The function both programs compute, at the ideal values: the mean of each anti-diagonal of a 1024 × 2048 table.

  For batch b and k < 2047, anti-diagonal 1024 + k of x[b] is the set of entries (i, j) with i + j = 1024 + k. Its sum
  is taken row by row (row i contributes its entry at column 1024 − i + k when that column exists), and the number of
  its entries is min(1024, 2047 − k). The result at (b, k) is the quotient of the two.
-/
import proofs.«117950_j42073499632165_1_alg».proof.Proof.Antidiag
import Idealize.ShloMosaic.PureOps.Ideal.Laws

noncomputable section

namespace Cert.Hankel

open Idealize.ShloMosaic Idealize.ShloMosaic.ValueIdx Cert.Antidiag

/-- The sum of anti-diagonal `1024 + k` of batch `b`. -/
def diagSum (x : (⟨3, ![64, 1024, 2048]⟩ : Shape).Idx → EReal) (b : Fin 64) (k : Fin 2047) : EReal :=
  ∑ i : Fin 1024, rowTerm (fun i j => x (ix3 b i j)) k i

/-- The number of entries of anti-diagonal `1024 + k`. -/
def diagCount (k : Fin 2047) : EReal := ((min 1024 (2047 - k.val) : ℕ) : EReal)

/-- The mean of each anti-diagonal `1024 + k`, per batch. -/
def mean (x : (⟨3, ![64, 1024, 2048]⟩ : Shape).Idx → EReal) : (⟨2, ![64, 2047]⟩ : Shape).Idx → EReal :=
  fun j => Ideal.div (diagSum x (j 0) (j 1)) (diagCount (j 1))

/-- `1.0` denotes the real one. -/
theorem ofBits_one : Ideal.ofBits .f32 0x3F800000#32 = 1 := by
  simp [Ideal.ofBits, Ideal.ieee, -EReal.coe_mul]; norm_num

/-- `1024.0` denotes the real 1024. -/
theorem ofBits_1024 : Ideal.ofBits .f32 0x44800000#32 = ((1024 : ℕ) : EReal) := by
  have h : Ideal.ofBits .f32 0x44800000#32 = ((1024 : ℝ) : EReal) := by
    simp [Ideal.ofBits, Ideal.ieee, -EReal.coe_mul]; norm_num
  rw [h, ← EReal.coe_natCast, Nat.cast_ofNat]

/-- The smaller of 1024 and the integer 2047 − k read as a float is the anti-diagonal's count. -/
theorem min_count (k : Fin 2047) :
    min (Ideal.ofBits .f32 0x44800000#32) ((((2047#32 - BitVec.ofNat 32 k.val).toInt : ℝ) : EReal)) = diagCount k := by
  have hk := k.isLt
  have e : (2047#32 - BitVec.ofNat 32 k.val).toInt = ((2047 - k.val : ℕ) : ℤ) := by
    rw [BitVec.toInt_eq_toNat_cond, BitVec.toNat_sub, BitVec.toNat_ofNat, BitVec.toNat_ofNat]
    omega
  rw [ofBits_1024, e]
  unfold diagCount
  rw [show ((((2047 - k.val : ℕ) : ℤ) : ℝ) : EReal) = ((2047 - k.val : ℕ) : EReal) by
    rw [Int.cast_natCast, EReal.coe_natCast]]
  by_cases h : 2047 - k.val ≤ 1024
  · rw [min_eq_right (by exact_mod_cast h), Nat.min_eq_right h]
  · rw [min_eq_left (by exact_mod_cast (Nat.le_of_lt (Nat.lt_of_not_le h))), Nat.min_eq_left (Nat.le_of_lt (Nat.lt_of_not_le h))]

end Cert.Hankel

end
-- ==== Proof.KernelTail.lean ====
/-
  The host lines after the call, as one function of the call's output array, read at an index at the ideal values:
  entry (b, k) is the output array's entry (b, 0, k) divided by min(1024.0, float(2047 − k)), and that minimum is the
  number of entries of anti-diagonal 1024 + k.
-/
import proofs.«117950_j42073499632165_1_alg».proof.Proof.Gen.KernelIdeal.Frame
import Idealize.ShloMosaic.Lib.StableHlo.Run
import proofs.«117950_j42073499632165_1_alg».proof.Proof.LibBcast
import proofs.«117950_j42073499632165_1_alg».proof.Proof.HankelSpec

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx Cert.Hankel

section AnyInstance
variable {F : FTy → Type} [FloatOps F]

/-- The host lines after the call, as one function of the call's output array. -/
def tail (a5 : (⟨S64x1x2047, .f32⟩ : BufTy).Contents (Elt F)) : (⟨S64x2047, .f32⟩ : BufTy).Contents (Elt F) :=
  Host.divf (shapeCast S64x2047 a5 shapeCasts_S64x1x2047_S64x2047)
    (broadcastInDim S64x2047 ![0, 1] bcast_S1x2047_S64x2047_0_1
      (broadcastInDim S1x2047 ![1] bcast_S2047_S1x2047_1
        (minimumf (broadcastInDim S2047 ![] bcast_S_S2047 (constant S_ .f32 0x44800000#32))
          (sitofp .f32 (subi (broadcastInDim S2047 ![] bcast_S_S2047 (constantI S_ 32 2047#32)) (iotaInDim S2047 32 0))))))

variable (m : (ℓ : Loc nD τ sig) → Buf (Elt F) ℓ)

/-- @main's result after the run is `tail` of the call's output array after the run. -/
theorem tail_eq (c : Dev nD) :
    (Pipeline.afterTail₀ cfgs (dats m) 0 (V0 m) [hostOps1] c main_v15 : (⟨S64x2047, .f32⟩ : BufTy).Contents (Elt F))
      = tail ((dats m 0 c).arrAt 1 cfg0.N) := by
  unfold Pipeline.afterTail₀
  show StableHlo.after hostOps1 _ (Proc.devRef .tc main_v15) = _
  after_results
  refine Eq.trans (b := tail (Pipeline.withArrays (cfgs 0).spec c (V0 m c) (fun w => (dats m 0 c).arrAt w (cfgs 0).N)
    (Proc.devRef .tc main_v5))) rfl ?_
  exact congrArg tail (Pipeline.withArrays_arr spec0 launch0.win.arr_inj c _ _ 1)

end AnyInstance

/-- `tail` at `(b, k)`, at the ideal values: the output array's entry `(b, 0, k)` over the anti-diagonal's count. -/
theorem tail_apply (a5 : (⟨S64x1x2047, .f32⟩ : BufTy).Contents (Elt Ideal)) (b : Fin 64) (k : Fin 2047) :
    tail (F := Ideal) a5 (ix2 b k) = Ideal.div (a5 (ix3 b (0 : Fin 1) k)) (diagCount k) := by
  unfold tail
  show Ideal.div (shapeCast _ a5 _ (ix2 b k)) (broadcastInDim _ _ _ _ (ix2 b k)) = _
  refine congrArg₂ Ideal.div ?_ ?_
  · exact shapeCast_apply a5 _ (ix2 b k) (ix3 b (0 : Fin 1) k) (by
      rw [Shape.rowMajor_val_three, Shape.rowMajor_val_two]
      show (b.val * 1 + 0) * 2047 + k.val = b.val * 2047 + k.val
      omega)
  · refine (Cert.LibBcast.row_apply _ _ _ b k).trans ?_
    show min (broadcastInDim S2047 ![] bcast_S_S2047 (constant (F := Ideal) S_ .f32 0x44800000#32) (ix1 k))
      ((((broadcastInDim S2047 ![] bcast_S_S2047 (constantI S_ 32 2047#32) (ix1 k) - BitVec.ofNat 32 k.val).toInt : ℝ) : EReal))
      = _
    rw [Cert.LibBcast.scalar_apply, Cert.LibBcast.scalar_apply]
    exact min_count k

end Cert.KernelIdeal.Tail

end
-- ==== Proof.LibSumAxes.lean ====
/-
  Sums over one axis of an array, read at an index, at the ideal values.

  * The sum over the last axis of an `[a, b, c]` array, read at `(i, j)`, is the sum over `k` of the entries `(i, j, k)`.
  * The sum over the first axis of an `[a, b]` array, read at `j`, is the sum over `i` of the entries `(i, j)`.

  Both are the library's reading of a one-axis sum as a `Fin`-indexed sum, with the index that has the summed
  coordinate inserted written out by its coordinates.
-/
import Idealize.ShloMosaic.Lib.Pipeline.Value
import Idealize.ShloMosaic.Lib.ValueIdx
import Idealize.ShloMosaic.PureOps.Ideal.Laws

namespace Cert.LibSumAxes

open Idealize.ShloMosaic Idealize.ShloMosaic.ValueIdx

/-- The sum over the last axis of an `[a, b, c]` array, read at `(i, j)`. -/
theorem sum_last_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ x acc h hφ hacc (ix2 i j) = ∑ k : Fin c, x (ix3 i j k) := by
  refine (Ideal.multiReduction_add_single x acc h hφ hacc (ix2 i j)).trans ?_
  refine Finset.sum_congr rfl fun k _ => congrArg x ?_
  funext ax; apply Fin.ext
  match ax with
  | ⟨0, _⟩ => rfl
  | ⟨1, _⟩ => rfl
  | ⟨2, _⟩ => rfl

/-- The sum over the first axis of an `[a, b]` array, read at `j`. -/
theorem sum_first_apply {a b : ℕ} {φ : FTy} (x : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ x acc h hφ hacc (ix1 j) = ∑ i : Fin a, x (ix2 i j) := by
  refine (Ideal.multiReduction_add_single x acc h hφ hacc (ix1 j)).trans ?_
  refine Finset.sum_congr rfl fun i _ => congrArg x ?_
  funext ax; apply Fin.ext
  match ax with
  | ⟨0, _⟩ => rfl
  | ⟨1, _⟩ => rfl

end Cert.LibSumAxes
-- ==== Proof.KernelBody.lean ====
/-
  What the kernel body stores, read at an index at the ideal values: entry k of the one-row output block is the sum
  over the 1024 rows of column k of the input block.
-/
import proofs.«117950_j42073499632165_1_alg».proof.Proof.Gen.KernelIdeal.Skeleton
import proofs.«117950_j42073499632165_1_alg».proof.Proof.LibSumAxes
import Idealize.ShloMosaic.Lib.ValueLayout

noncomputable section

namespace Cert.KernelIdeal.BodyValue

open Cert.KernelIdeal Cert.KernelIdeal.Gen Idealize.ShloMosaic Idealize.ShloMosaic.ValueIdx

/-- The stored block at `(0, 0, k)`: the loaded `[1, 1024, 2047]` block with its unit axis dropped, summed over its
    rows, and the `[2047]` result given its two unit axes back. -/
theorem pay1_apply (x0 : Vec Ideal S1x1024x2047 .f32) (u v : Fin 1) (k : Fin 2047) :
    k0_pay1 (F := Ideal) x0 (ix3 u v k) = ∑ i : Fin 1024, x0 (ix3 (0 : Fin 1) i k) := by
  unfold k0_pay1
  refine (shapeCast_ab_1ab_apply _ _ u v k).trans ?_
  refine (shapeCast_a_1a_apply _ _ v k).trans ?_
  refine (Cert.LibSumAxes.sum_first_apply _ _ _ _ _ k).trans ?_
  refine Finset.sum_congr rfl fun i _ => ?_
  exact shapeCast_1ab_ab_apply x0 _ i k

end Cert.KernelIdeal.BodyValue

end
-- ==== Proof.KernelValue.lean ====
/-
  The kernel's output array after the call: entry (b, 0, k) is the sum over the 1024 rows i of the staged input
  array's entries (b, i, k).

  Grid point t handles batch t: its input block is rows (t, ·, ·) of the input array and its output block is row
  (t, 0, ·) of the output array. The body stores the column sums of its input block, so what point t writes back is
  block t of the array of per-batch column sums; the 64 output blocks are the 64 batches, so together they fill the
  output array.
-/
import proofs.«117950_j42073499632165_1_alg».proof.Proof.KernelBody
import proofs.«117950_j42073499632165_1_alg».proof.Proof.Gen.KernelIdeal.Frame
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block rectangles' offsets are all zero. -/
theorem hz3 : (![0, 0, 0] : Fin 3 → Nat) = fun _ => 0 := funext fun a => by fin_cases a <;> rfl

/-- What the body leaves in the output block, at `(u, v, k)`: the column sum of the input block. -/
theorem out_apply (x0 : Vec Ideal S1x1024x2047 .f32) (u v : Fin 1) (k : Fin 2047) :
    out0_1 x0 (ix3 u v k) = ∑ i : Fin 1024, x0 (ix3 (0 : Fin 1) i k) := by
  unfold out0_1
  rw [View.canon_unit_zero hz3, View.ld_unit_zero (S := S1x1024x2047) hz3]
  exact BodyValue.pay1_apply x0 u v k

/-- The per-batch column sums of a `[64, 1024, 2047]` array, as a `[64, 1, 2047]` array. -/
def colSums (q : (⟨S64x1024x2047, .f32⟩ : BufTy).Contents (Elt Ideal)) : (⟨S64x1x2047, .f32⟩ : BufTy).Contents (Elt Ideal) :=
  fun j => ∑ i : Fin 1024, q (ix3 (j 0) i (j 2))

/-- The printed index maps over the grid: both windows' blocks are at (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What the body leaves in the output block, at any index of the block: the sum of the input block's column. -/
theorem out_apply' (x0 : Vec Ideal S1x1024x2047 .f32) (y : S1x1x2047.Idx) (k : Fin 2047) (hk : y 2 = k) :
    out0_1 x0 y = ∑ i : Fin 1024, x0 (ix3 (0 : Fin 1) i k) := by
  subst hk
  obtain ⟨u, v, k, rfl⟩ : ∃ (u v : Fin 1) (k : Fin 2047), y = ix3 u v k := ⟨y 0, y 1, y 2, eq_ix3 y⟩
  exact out_apply x0 u v k

/-- Any array read through point `t`'s input block at `(0, i, k)` is the array at `(b, i, k)`, `b` the block's batch. -/
theorem read_blk0 (Q : (⟨S64x1024x2047, .f32⟩ : BufTy).Contents (Elt Ideal)) (t : Fin cfg0.N)
    (y : ((cfg0.win 0).xblock (grid0.coords t)).Idx) (z : S64x1024x2047.Idx)
    (hz : ((cfg0.win 0).blk t).view.emb y = z) :
    ((cfg0.win 0).blk t).view.read (Elt Ideal) Q y = Q z := by
  subst hz; rfl

/-- Point `t`'s input block read at `(0, i, k)` is the input array at `(b, i, k)`, `b` the block's batch. -/
theorem iblk_apply (c : Dev nD) (t : Fin cfg0.N) (i : Fin 1024) (k : Fin 2047) (b : Fin 64) (hb : b.val = t.val) :
    (iblk m c 0 t : Vec Ideal S1x1024x2047 .f32) (ix3 (0 : Fin 1) i k)
      = (V m c (Pipeline.arrRef spec0 0) : (⟨S64x1024x2047, .f32⟩ : BufTy).Contents (Elt Ideal)) (ix3 b i k) := by
  obtain ⟨e0, e1, e2, -, -, -⟩ := idx_facts t
  unfold iblk
  refine read_blk0 _ t _ _ (funext fun a => Fin.ext ?_)
  match a with
  | ⟨0, _⟩ => show win0_0.index t (0 : Fin 3) * 1 + 1 * 0 = b.val; omega
  | ⟨1, _⟩ => show win0_0.index t (1 : Fin 3) * 1024 + 1 * i.val = i.val; omega
  | ⟨2, _⟩ => show win0_0.index t (2 : Fin 3) * 2047 + 1 * k.val = k.val; omega

/-- What point `t` writes back is block `t` of any array `G` that the body's result agrees with under the block. -/
theorem flushed_of (G : (⟨S64x1x2047, .f32⟩ : BufTy).Contents (Elt Ideal)) (c : Dev nD) (t : Fin cfg0.N)
    (hG : ∀ y : ((cfg0.win 1).xblock (grid0.coords t)).Idx,
      out0_1 (iblk m c 0 t) y = G (((cfg0.win 1).blk t).view.emb y)) :
    (dats m 0 c).flushed 1 t = ((cfg0.win 1).blk t).view.read (Elt Ideal) G := by
  show (cfg0.win 1).cut (grid0.coords t) ((dats m 0 c).after 1 t) = _
  rw [after0_1]
  funext y
  exact hG y

/-- The column sums at `(b, u, k)`. -/
theorem colSums_apply (q : (⟨S64x1024x2047, .f32⟩ : BufTy).Contents (Elt Ideal)) (b : Fin 64) (u : Fin 1) (k : Fin 2047) :
    colSums q (ix3 b u k) = ∑ i : Fin 1024, q (ix3 b i k) := rfl

/-- What point `t` writes back is block `t` of the column sums of the input array as the region finds it. -/
theorem flushed_eq (c : Dev nD) (t : Fin cfg0.N) :
    (dats m 0 c).flushed 1 t
      = ((cfg0.win 1).blk t).view.read (Elt Ideal) (colSums (V m c (Pipeline.arrRef spec0 0))) := by
  refine flushed_of m _ c t fun y => ?_
  obtain ⟨-, -, -, e3, e4, e5⟩ := idx_facts t
  have hy0 : (y 0).val < 1 := (y 0).isLt
  have hy1 : (y 1).val < 1 := (y 1).isLt
  have ht : t.val < 64 := by have h := t.isLt; have e : cfg0.N = 64 := N_0; omega
  have hz : ((cfg0.win 1).blk t).view.emb y = ix3 (⟨t.val, ht⟩ : Fin 64) (0 : Fin 1) (y 2 : Fin 2047) := by
    funext a; apply Fin.ext
    match a with
    | ⟨0, _⟩ => show win0_1.index t (0 : Fin 3) * 1 + 1 * (y 0).val = t.val; omega
    | ⟨1, _⟩ => show win0_1.index t (1 : Fin 3) * 1 + 1 * (y 1).val = 0; omega
    | ⟨2, _⟩ => show win0_1.index t (2 : Fin 3) * 2047 + 1 * (y 2).val = (y 2).val; omega
  refine (out_apply' _ y (y 2) rfl).trans ?_
  refine Eq.trans ?_ (congrArg (colSums (V m c (Pipeline.arrRef spec0 0))) hz.symm)
  refine Eq.trans ?_ (colSums_apply _ (⟨t.val, ht⟩ : Fin 64) (0 : Fin 1) (y 2)).symm
  exact Finset.sum_congr rfl fun i _ => iblk_apply m c t i (y 2) ⟨t.val, ht⟩ rfl

/-- An index of the output array is in point `t`'s block iff each coordinate is in the block's range on its axis. -/
theorem mem_blk (t : Fin cfg0.N) (i : S64x1x2047.Idx) :
    i ∈ ((cfg0.win 1).blk t).view.set ↔ ∀ a : Fin 3, win0_1.index t a * S1x1x2047.size a ≤ (i a).val
      ∧ (i a).val < win0_1.index t a * S1x1x2047.size a + S1x1x2047.size a := by
  show i ∈ ((View.whole main_v5).slice (win0_1.rect t)).set ↔ _
  rw [View.set_slice_whole, Rect.mem_set_unit]
  exact Iff.rfl

/-- Every index of the output array is in the block of the point of its batch. -/
theorem cover (i : S64x1x2047.Idx) :
    ∃ t : Fin cfg0.N, (cfg0.win 1).flush t = true ∧ i ∈ ((cfg0.win 1).blk t).view.set := by
  have h0 : (i 0).val < 64 := (i 0).isLt
  have h1 : (i 1).val < 1 := (i 1).isLt
  have h2 : (i 2).val < 2047 := (i 2).isLt
  have hN : (i 0).val < grid0.N := by rw [N_0]; exact h0
  obtain ⟨e0, e1, e2, e3, e4, e5⟩ := idx_facts ⟨(i 0).val, hN⟩
  have e3' : win0_1.index ⟨(i 0).val, hN⟩ (0 : Fin 3) = (i 0).val := e3
  refine ⟨⟨(i 0).val, hN⟩, flush0_1 _, ?_⟩
  rw [mem_blk]
  intro a
  match a with
  | ⟨0, _⟩ =>
    show win0_1.index ⟨(i 0).val, hN⟩ (0 : Fin 3) * 1 ≤ (i 0).val ∧ (i 0).val < win0_1.index ⟨(i 0).val, hN⟩ (0 : Fin 3) * 1 + 1
    omega
  | ⟨1, _⟩ =>
    show win0_1.index ⟨(i 0).val, hN⟩ (1 : Fin 3) * 1 ≤ (i 1).val ∧ (i 1).val < win0_1.index ⟨(i 0).val, hN⟩ (1 : Fin 3) * 1 + 1
    omega
  | ⟨2, _⟩ =>
    show win0_1.index ⟨(i 0).val, hN⟩ (2 : Fin 3) * 2047 ≤ (i 2).val ∧ (i 2).val < win0_1.index ⟨(i 0).val, hN⟩ (2 : Fin 3) * 2047 + 2047
    omega

/-- THE OUTPUT ARRAY after the call: the column sums of the input array as the region finds it. -/
theorem final (c : Dev nD) : (dats m 0 c).arrAt 1 cfg0.N = colSums (V m c main_v4) :=
  (dats m 0 c).arrAt_eq_of_cover 1 (colSums (V m c (Pipeline.arrRef spec0 0))) (fun t _ => flushed_eq m c t) cover

end Cert.KernelIdeal.KValue

end
-- ==== Proof.KernelPrefix.lean ====
/-
  What the host lines before the call hand the kernel, read at an index.

  The argument x : [64, 1024, 2048] is padded on the right of its last axis with 1023 zeros (rows of length 3071),
  flattened per batch, has its first 1024 entries dropped, is cut again into rows of length 3070, and of each row the
  first 2047 entries are kept. Entry (b, i, k) of the result sits at flat position 1024 + 3070·i + k =
  3071·i + (1024 − i + k) of batch b, and 1024 − i + k is below 3071, so it is entry (b, i, 1024 − i + k) of the
  padded array: x there when that column is below 2048, zero otherwise. Row i is the argument's row i shifted left by
  1024 − i, which puts the anti-diagonal i + j = 1024 + k in column k.
-/
import proofs.«117950_j42073499632165_1_alg».proof.Proof.Gen.KernelIdeal.Frame
import Idealize.ShloMosaic.Lib.StableHlo.Run
import Idealize.ShloMosaic.Lib.KernelVsHost

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The padded array: rows of length 3071, zeros from column 2048 on. -/
def padded (x : (⟨S64x1024x2048, .f32⟩ : BufTy).Contents (Elt F)) : (⟨S64x1024x3071, .f32⟩ : BufTy).Contents (Elt F) :=
  pad S64x1024x3071 ![0, 0, 0] ![0, 0, 1023] ![0, 0, 0] x
    (sitofp .f32 (constantI S_ 32 0#32) : (⟨S_, .f32⟩ : BufTy).Contents (Elt F))
    pads_S64x1024x2048_S64x1024x3071_000_000_010230 h_S_

/-- The array the call's input window stages, as the host lines compute it from the argument. -/
def skewed (x : (⟨S64x1024x2048, .f32⟩ : BufTy).Contents (Elt F)) : (⟨S64x1024x2047, .f32⟩ : BufTy).Contents (Elt F) :=
  extractStridedSlice S64x1024x2047 ![0, 0, 0]
    (shapeCast S64x1024x3070
      (extractStridedSlice S64x3143680 ![0, 1024]
        (shapeCast S64x3144704 (padded x) shapeCasts_S64x1024x3071_S64x3144704)
        slices_S64x3144704_S64x3143680_0_1024)
      shapeCasts_S64x3143680_S64x1024x3070)
    slices_S64x1024x3070_S64x1024x2047_0_0_0

variable (m : (ℓ : Loc nD τ sig) → Buf (Elt F) ℓ)

/-- The region finds the input window's array at `skewed` of the argument as launched. -/
theorem V_main_v4 (c : Dev nD) :
    (V m c main_v4 : (⟨S64x1024x2047, .f32⟩ : BufTy).Contents (Elt F)) = skewed (m ((c : Thread nD τ).loc main_arg0)) := by
  dsimp only [V, V0]
  simp only [hostOps0, hostOps0_1, hostOps0_2, List.flatten_cons, List.flatten_nil, List.append_nil, List.cons_append,
    List.nil_append]
  after_results
  unfold skewed
  refine congrArg (fun z : (⟨S64x1024x3070, .f32⟩ : BufTy).Contents (Elt F) =>
    extractStridedSlice S64x1024x2047 ![0, 0, 0] z slices_S64x1024x3070_S64x1024x2047_0_0_0) ?_
  funext i
  show shapeCast S64x1024x3070 _ shapeCasts_S64x3143680_S64x1024x3070 i
    = shapeCast S64x1024x3070 _ shapeCasts_S64x3143680_S64x1024x3070 i
  refine congrFun (congrArg (fun z : (⟨S64x3143680, .f32⟩ : BufTy).Contents (Elt F) =>
    shapeCast S64x1024x3070 z shapeCasts_S64x3143680_S64x1024x3070) ?_) i
  refine congrArg (fun z : (⟨S64x3144704, .f32⟩ : BufTy).Contents (Elt F) =>
    extractStridedSlice S64x3143680 ![0, 1024] z slices_S64x3144704_S64x3143680_0_1024) ?_
  funext i'
  show shapeCast S64x3144704 _ shapeCasts_S64x1024x3071_S64x3144704 i'
    = shapeCast S64x3144704 _ shapeCasts_S64x1024x3071_S64x3144704 i'
  refine congrFun (congrArg (fun z : (⟨S64x1024x3071, .f32⟩ : BufTy).Contents (Elt F) =>
    shapeCast S64x3144704 z shapeCasts_S64x1024x3071_S64x3144704) ?_) i'
  unfold padded
  rfl

end Cert.KernelIdeal.Prefix

end
-- ==== Proof.KernelSkew.lean ====
/-
  The array the kernel's input window stages, read at an index at the ideal values: entry (b, i, k) is the argument at
  (b, i, 1024 − i + k) when that column is below 2048, and zero otherwise (the position 1024 + 3070·i + k of the padded
  batch is 3071·i + (1024 − i + k), and 1024 − i + k is a column of the padded row).
-/
import proofs.«117950_j42073499632165_1_alg».proof.Proof.KernelPrefix

noncomputable section

namespace Cert.KernelIdeal.Prefix

open Cert.KernelIdeal Cert.KernelIdeal.Gen Idealize.ShloMosaic Idealize.ShloMosaic.ValueIdx

/-- `skewed x` at `(b, i, k)`: the argument at `(b, i, 1024 − i + k)` when that column exists, zero otherwise. -/
theorem skewed_apply (x : (⟨S64x1024x2048, .f32⟩ : BufTy).Contents (Elt Ideal)) (b : Fin 64) (i : Fin 1024) (k : Fin 2047) :
    skewed (F := Ideal) x (ix3 b i k)
      = if h : 1024 - i.val + k.val < 2048 then x (ix3 b i ⟨1024 - i.val + k.val, h⟩) else 0 := by
  have hb := b.isLt
  have hi := i.isLt
  have hk := k.isLt
  unfold skewed
  refine (extractStridedSlice_apply _ _ _ (ix3 b i k) (ix3 b i (⟨k.val, by omega⟩ : Fin 3070)) (fun a => by
    match a with
    | ⟨0, _⟩ => show b.val = 0 + b.val; omega
    | ⟨1, _⟩ => show i.val = 0 + i.val; omega
    | ⟨2, _⟩ => show k.val = 0 + k.val; omega)).trans ?_
  refine (shapeCast_apply _ _ (ix3 b i (⟨k.val, by omega⟩ : Fin 3070)) (ix2 b (⟨i.val * 3070 + k.val, by omega⟩ : Fin 3143680)) (by
    rw [Shape.rowMajor_val_three, Shape.rowMajor_val_two]
    show b.val * 3143680 + (i.val * 3070 + k.val) = (b.val * 1024 + i.val) * 3070 + k.val
    omega)).trans ?_
  refine (extractStridedSlice_apply _ _ _ (ix2 b (⟨i.val * 3070 + k.val, by omega⟩ : Fin 3143680))
    (ix2 b (⟨1024 + (i.val * 3070 + k.val), by omega⟩ : Fin 3144704)) (fun a => by
    match a with
    | ⟨0, _⟩ => show b.val = 0 + b.val; omega
    | ⟨1, _⟩ => show 1024 + (i.val * 3070 + k.val) = 1024 + (i.val * 3070 + k.val); rfl)).trans ?_
  refine (shapeCast_apply _ _ (ix2 b (⟨1024 + (i.val * 3070 + k.val), by omega⟩ : Fin 3144704))
    (ix3 b i (⟨1024 - i.val + k.val, by omega⟩ : Fin 3071)) (by
    rw [Shape.rowMajor_val_three, Shape.rowMajor_val_two]
    show (b.val * 1024 + i.val) * 3071 + (1024 - i.val + k.val) = b.val * 3144704 + (1024 + (i.val * 3070 + k.val))
    omega)).trans ?_
  unfold padded
  by_cases h : 1024 - i.val + k.val < 2048
  · rw [dif_pos h]
    exact pad_apply_of_inside _ _ _ x _ _ _ _ (ix3 b i ⟨1024 - i.val + k.val, h⟩) (fun a => by
      match a with
      | ⟨0, _⟩ => show b.val = 0 + b.val * (0 + 1); omega
      | ⟨1, _⟩ => show i.val = 0 + i.val * (0 + 1); omega
      | ⟨2, _⟩ => show 1024 - i.val + k.val = 0 + (1024 - i.val + k.val) * (0 + 1); omega)
  · rw [dif_neg h]
    refine (pad_apply_of_not_inside _ _ _ x _ _ _ _ (2 : Fin 3) (fun hin => h ?_)).trans ?_
    · have h2 : (1024 - i.val + k.val - 0) / (0 + 1) < 2048 := hin.2.2
      omega
    · exact sitofp_zero (φ := .f32)

end Cert.KernelIdeal.Prefix

end
-- ==== Proof.KernelRun.lean ====
/-
  The kernel program's result. The kernel leaves the per-batch column sums of the skewed array; column k of the skewed
  array is anti-diagonal 1024 + k of the argument (padded with zeros), so its sum is the anti-diagonal's sum; the host
  lines after the call divide it by the anti-diagonal's number of entries. So the result is the mean of the
  anti-diagonals of the argument as launched.
-/
import proofs.«117950_j42073499632165_1_alg».proof.Proof.KernelTail
import proofs.«117950_j42073499632165_1_alg».proof.Proof.KernelValue
import proofs.«117950_j42073499632165_1_alg».proof.Proof.KernelSkew

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx Cert.Hankel

variable (m : (ℓ : Loc nD τ sig) → Buf (Elt Ideal) ℓ)

/-- THE KERNEL PROGRAM'S RESULT is the mean of the anti-diagonals of the argument as launched. -/
theorem result_eq (c : Dev nD) :
    (Pipeline.afterTail₀ cfgs (dats m) 0 (V0 m) [hostOps1] c main_v15 : (⟨S64x2047, .f32⟩ : BufTy).Contents (Elt Ideal))
      = mean (m ((c : Thread nD τ).loc main_arg0)) := by
  rw [tail_eq, KValue.final, Prefix.V_main_v4]
  funext j
  obtain ⟨b, k, rfl⟩ : ∃ (b : Fin 64) (k : Fin 2047), j = ix2 b k := ⟨j 0, j 1, eq_ix2 j⟩
  rw [tail_apply, KValue.colSums_apply]
  show _ = Ideal.div (diagSum (m ((c : Thread nD τ).loc main_arg0)) b k) (diagCount k)
  refine congrArg (fun s => Ideal.div s (diagCount k)) ?_
  unfold diagSum
  exact Finset.sum_congr rfl fun i _ => Prefix.skewed_apply _ b i k

variable (ρ : Dev nD → PrngReg)

/-- Every weakly fair execution of the kernel program at the ideal values ends with its result at the mean of the
    anti-diagonals of the argument, the argument unchanged. -/
theorem run : θ_run defs (onTc (τ := τ) (main (F := Ideal))) ⟨m, fun _ => 0, ρ⟩ fun r => ∀ c : Dev nD,
      r.2.mem ((c.tc : Thread nD τ).loc main_v15) = mean (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v15 (Pipeline.mem_restRefs_of main_v15 (by decide) (by decide))).trans (result_eq m c),
     ((h c).2 main_arg0 (Pipeline.mem_restRefs_of main_arg0 (by decide) (by decide))).trans (W_main_arg0 m (dats m) c)⟩)
    (run_main m ρ)

end Cert.KernelIdeal.Tail

end
-- ==== Proof.LibScatterRows.lean ====
/-
  A host scatter whose body is a float add, with one scalar scatter index per update row, read at an index at the
  ideal values.

  Rows (first section): the operand is an `[S, B]` matrix, the updates an `[N, B]` matrix, the indices an `[N, 1]` column; row `n`
  of the updates is added onto row `idx n` of the operand. When the index column holds the naturals `g n` (read as
  signed integers), the result at `(r, b)` is the operand there plus the sum over `n` of the updates `(n, b)` whose
  `g n` is `r`; an update whose `g n` is not below `S` is dropped.

  Entries (second section): the same with a vector operand `[S]` and a vector of updates `[N]`: entry `n` of the
  updates is added onto entry `idx n` of the operand.
-/
import Idealize.ShloMosaic.Lib.ValueIdx
import Idealize.ShloMosaic.PureOps.Ideal.Laws

namespace Cert.LibScatterRows

open Idealize.ShloMosaic Idealize.ShloMosaic.ValueIdx

/-- Two rank-2 indices built from coordinates are equal exactly when the coordinates are. -/
theorem ix2_eq_iff {n0 n1 : ℕ} (a a' : Fin n0) (b b' : Fin n1) : ix2 a b = ix2 a' b' ↔ a = a' ∧ b = b' :=
  ⟨fun h => ⟨congrFun h 0, congrFun h 1⟩, fun ⟨h0, h1⟩ => by rw [h0, h1]⟩

/-- Two rank-1 indices built from a coordinate are equal exactly when the coordinates are. -/
theorem ix1_eq_iff {n0 : ℕ} (a a' : Fin n0) : ix1 a = ix1 a' ↔ a = a' :=
  ⟨fun h => congrFun h 0, fun h => by rw [h]⟩

section Rows
variable {S N B w : ℕ}
  (wf : ScatterDims.WF ⟨2, ![S, B]⟩ ⟨2, ![N, 1]⟩ ⟨2, ![N, B]⟩ [1] [0] [0] 1)

/-- The row scatter's dimension numbers. -/
abbrev rowDims : ScatterDims ⟨2, ![S, B]⟩ ⟨2, ![N, 1]⟩ ⟨2, ![N, B]⟩ := ⟨[1], [0], [0], 1, wf⟩

/-- Update index `j` reads its scatter index at row `j 0` of the index column. -/
theorem siIdx_rows (j : (⟨2, ![N, B]⟩ : Shape).Idx) (c : Fin 1) :
    ScatterDims.siIdx (rowDims wf) j c = ix2 (n0 := N) (j 0) (0 : Fin 1) := by
  funext b
  match b with
  | ⟨0, _⟩ =>
    unfold ScatterDims.siIdx
    rw [dif_neg (show ¬((0 : ℕ) = 1) by decide)]
    apply Fin.ext
    rfl
  | ⟨1, _⟩ =>
    unfold ScatterDims.siIdx
    rw [dif_pos (show (1 : ℕ) = 1 from rfl)]
    apply Fin.ext
    exact Nat.lt_one_iff.mp c.isLt

variable (idx : IVec ⟨2, ![N, 1]⟩ w) (g : Fin N → ℕ) (hg : ∀ n, (idx (ix2 n 0)).toInt = (g n : ℤ))
include hg

theorem start_rows_zero (j : (⟨2, ![N, B]⟩ : Shape).Idx) : ScatterDims.start (rowDims wf) j idx (0 : Fin 2) = (g (j 0) : ℤ) := by
  unfold ScatterDims.start
  rw [dif_pos (show (0 : Fin 2) ∈ [(0 : Fin 2)] by decide), siIdx_rows]
  exact hg _

omit hg in
theorem start_rows_one (j : (⟨2, ![N, B]⟩ : Shape).Idx) : ScatterDims.start (rowDims wf) j idx (1 : Fin 2) = 0 := by
  unfold ScatterDims.start
  rw [dif_neg (show (1 : Fin 2) ∉ [(0 : Fin 2)] by decide)]

omit hg in
theorem window_rows_zero (j : (⟨2, ![N, B]⟩ : Shape).Idx) : ScatterDims.window (rowDims wf) j (0 : Fin 2) = 0 := by
  have hmem : (0 : Fin 2) ∉ (rowDims wf).sKept := (show (0 : Fin 2) ∉ [(1 : Fin 2)] by decide)
  unfold ScatterDims.window
  rw [dif_neg hmem]

omit hg in
theorem window_rows_one (j : (⟨2, ![N, B]⟩ : Shape).Idx) : ScatterDims.window (rowDims wf) j (1 : Fin 2) = (j 1).val := by
  have hmem : (1 : Fin 2) ∈ (rowDims wf).sKept := (show (1 : Fin 2) ∈ [(1 : Fin 2)] by decide)
  unfold ScatterDims.window
  rw [dif_pos hmem]
  rfl

/-- Where update index `j` of a row scatter lands: row `g (j 0)` of the operand, same column, when that row exists. -/
theorem resultIdx?_rows (j : (⟨2, ![N, B]⟩ : Shape).Idx) :
    ScatterDims.resultIdx? (rowDims wf) j idx = if h : g (j 0) < S then some (ix2 ⟨g (j 0), h⟩ (j 1)) else none := by
  have hs0 := start_rows_zero wf idx g hg j
  have hs1 := start_rows_one wf idx j
  have hw0 := window_rows_zero wf j
  have hw1 := window_rows_one wf j
  have hj : (j 1).val < B := (j 1).isLt
  unfold ScatterDims.resultIdx?
  by_cases h : g (j 0) < S
  · have hall : ∀ a : Fin 2, 0 ≤ ScatterDims.start (rowDims wf) j idx a + (ScatterDims.window (rowDims wf) j a : ℤ)
        ∧ ScatterDims.start (rowDims wf) j idx a + (ScatterDims.window (rowDims wf) j a : ℤ) < ((⟨2, ![S, B]⟩ : Shape).size a : ℤ) := by
      refine Fin.forall_fin_two.2 ⟨?_, ?_⟩
      · rw [hs0, hw0]; show 0 ≤ (g (j 0) : ℤ) + ((0 : ℕ) : ℤ) ∧ (g (j 0) : ℤ) + ((0 : ℕ) : ℤ) < (S : ℤ); omega
      · rw [hs1, hw1]; show 0 ≤ (0 : ℤ) + ((j 1).val : ℤ) ∧ (0 : ℤ) + ((j 1).val : ℤ) < (B : ℤ); omega
    rw [dif_pos hall, dif_pos h]
    refine congrArg some (funext fun a => Fin.ext ?_)
    match a with
    | ⟨0, _⟩ =>
      show (ScatterDims.start (rowDims wf) j idx (0 : Fin 2) + (ScatterDims.window (rowDims wf) j (0 : Fin 2) : ℤ)).toNat = g (j 0)
      rw [hs0, hw0]; omega
    | ⟨1, _⟩ =>
      show (ScatterDims.start (rowDims wf) j idx (1 : Fin 2) + (ScatterDims.window (rowDims wf) j (1 : Fin 2) : ℤ)).toNat = (j 1).val
      rw [hs1, hw1]; omega
  · rw [dif_neg h]
    refine dif_neg fun hall => h ?_
    have h0 := (hall (0 : Fin 2)).2
    rw [hs0, hw0] at h0
    have : ((g (j 0) : ℤ) + ((0 : ℕ) : ℤ)) < (S : ℤ) := h0
    omega

/-- THE ROW SCATTER READ AT `(r, b)`: the operand there plus the updates `(n, b)` of the rows `n` sent to `r`. -/
theorem scatterAdd_rows_apply {φ : FTy} (x : FVec Ideal ⟨2, ![S, B]⟩ φ) (upd : FVec Ideal ⟨2, ![N, B]⟩ φ)
    (r : Fin S) (b : Fin B) :
    Host.scatterAdd (rowDims wf) x idx upd (ix2 r b)
      = x (ix2 r b) + ∑ n : Fin N, if g n = r.val then upd (ix2 n b) else 0 := by
  show x (ix2 r b) + ∑ j ∈ Finset.univ.filter (fun j => ScatterDims.resultIdx? (rowDims wf) j idx = some (ix2 r b)), upd j = _
  congr 1
  rw [Finset.sum_filter, sum_idx2]
  refine Finset.sum_congr rfl fun n _ => ?_
  have hcond : ∀ b' : Fin B,
      (ScatterDims.resultIdx? (rowDims wf) (ix2 n b') idx = some (ix2 r b)) ↔ (g n = r.val ∧ b' = b) := by
    intro b'
    rw [resultIdx?_rows wf idx g hg]
    show (if h : g n < S then some (ix2 (⟨g n, h⟩ : Fin S) b') else none) = some (ix2 r b) ↔ _
    by_cases h : g n < S
    · rw [dif_pos h, Option.some_inj, ix2_eq_iff]
      constructor
      · rintro ⟨h0, h1⟩; exact ⟨congrArg Fin.val h0, h1⟩
      · rintro ⟨h0, h1⟩; exact ⟨Fin.ext h0, h1⟩
    · rw [dif_neg h]
      constructor
      · intro e; cases e
      · rintro ⟨h0, _⟩; exact absurd (h0 ▸ r.isLt) h
  rw [Finset.sum_congr rfl fun b' _ => if_congr (hcond b') rfl rfl]
  by_cases hgn : g n = r.val
  · rw [if_pos hgn]
    simp only [hgn, true_and, Finset.sum_ite_eq', Finset.mem_univ, if_true]
  · rw [if_neg hgn]
    exact Finset.sum_eq_zero fun b' _ => if_neg fun hc => hgn hc.1

end Rows

/-! ## Entries: a vector operand, one update entry per scatter index -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Entries
variable {S N w : ℕ}
  (wf : ScatterDims.WF ⟨1, ![S]⟩ ⟨2, ![N, 1]⟩ ⟨1, ![N]⟩ [] [0] [0] 1)

/-- The entry scatter's dimension numbers. -/
abbrev entryDims : ScatterDims ⟨1, ![S]⟩ ⟨2, ![N, 1]⟩ ⟨1, ![N]⟩ := ⟨[], [0], [0], 1, wf⟩

/-- Update index `j` reads its scatter index at row `j 0` of the index column. -/
theorem siIdx_entries (j : (⟨1, ![N]⟩ : Shape).Idx) (c : Fin 1) :
    ScatterDims.siIdx (entryDims wf) j c = ix2 (n0 := N) (j 0) (0 : Fin 1) := by
  funext b
  match b with
  | ⟨0, _⟩ =>
    unfold ScatterDims.siIdx
    rw [dif_neg (show ¬((0 : ℕ) = 1) by decide)]
    apply Fin.ext
    rfl
  | ⟨1, _⟩ =>
    unfold ScatterDims.siIdx
    rw [dif_pos (show (1 : ℕ) = 1 from rfl)]
    apply Fin.ext
    exact Nat.lt_one_iff.mp c.isLt

variable (idx : IVec ⟨2, ![N, 1]⟩ w) (g : Fin N → ℕ) (hg : ∀ n, (idx (ix2 n 0)).toInt = (g n : ℤ))
include hg

theorem start_entries (j : (⟨1, ![N]⟩ : Shape).Idx) : ScatterDims.start (entryDims wf) j idx (0 : Fin 1) = (g (j 0) : ℤ) := by
  unfold ScatterDims.start
  rw [dif_pos (show (0 : Fin 1) ∈ [(0 : Fin 1)] by decide), siIdx_entries]
  exact hg _

omit hg in
theorem window_entries (j : (⟨1, ![N]⟩ : Shape).Idx) : ScatterDims.window (entryDims wf) j (0 : Fin 1) = 0 := by
  have hmem : (0 : Fin 1) ∉ (entryDims wf).sKept := (show (0 : Fin 1) ∉ ([] : List (Fin 1)) by decide)
  unfold ScatterDims.window
  rw [dif_neg hmem]

/-- Where update index `j` of an entry scatter lands: entry `g (j 0)` of the operand, when there is one. -/
theorem resultIdx?_entries (j : (⟨1, ![N]⟩ : Shape).Idx) :
    ScatterDims.resultIdx? (entryDims wf) j idx = if h : g (j 0) < S then some (ix1 ⟨g (j 0), h⟩) else none := by
  have hs0 := start_entries wf idx g hg j
  have hw0 := window_entries wf j
  unfold ScatterDims.resultIdx?
  by_cases h : g (j 0) < S
  · have hall : ∀ a : Fin 1, 0 ≤ ScatterDims.start (entryDims wf) j idx a + (ScatterDims.window (entryDims wf) j a : ℤ)
        ∧ ScatterDims.start (entryDims wf) j idx a + (ScatterDims.window (entryDims wf) j a : ℤ) < ((⟨1, ![S]⟩ : Shape).size a : ℤ) := by
      intro a
      obtain rfl : a = 0 := Subsingleton.elim _ _
      rw [hs0, hw0]; show 0 ≤ (g (j 0) : ℤ) + ((0 : ℕ) : ℤ) ∧ (g (j 0) : ℤ) + ((0 : ℕ) : ℤ) < (S : ℤ); omega
    rw [dif_pos hall, dif_pos h]
    refine congrArg some (funext fun a => Fin.ext ?_)
    match a with
    | ⟨0, _⟩ =>
      show (ScatterDims.start (entryDims wf) j idx (0 : Fin 1) + (ScatterDims.window (entryDims wf) j (0 : Fin 1) : ℤ)).toNat = g (j 0)
      rw [hs0, hw0]; omega
  · rw [dif_neg h]
    refine dif_neg fun hall => h ?_
    have h0 := (hall (0 : Fin 1)).2
    rw [hs0, hw0] at h0
    have : ((g (j 0) : ℤ) + ((0 : ℕ) : ℤ)) < (S : ℤ) := h0
    omega

/-- THE ENTRY SCATTER READ AT `r`: the operand there plus the updates `n` sent to `r`. -/
theorem scatterAdd_entries_apply {φ : FTy} (x : FVec Ideal ⟨1, ![S]⟩ φ) (upd : FVec Ideal ⟨1, ![N]⟩ φ) (r : Fin S) :
    Host.scatterAdd (entryDims wf) x idx upd (ix1 r)
      = x (ix1 r) + ∑ n : Fin N, if g n = r.val then upd (ix1 n) else 0 := by
  show x (ix1 r) + ∑ j ∈ Finset.univ.filter (fun j => ScatterDims.resultIdx? (entryDims wf) j idx = some (ix1 r)), upd j = _
  congr 1
  rw [Finset.sum_filter, sum_idx1]
  refine Finset.sum_congr rfl fun n _ => if_congr ?_ rfl rfl
  rw [resultIdx?_entries wf idx g hg]
  show (if h : g n < S then some (ix1 (⟨g n, h⟩ : Fin S)) else none) = some (ix1 r) ↔ _
  by_cases h : g n < S
  · rw [dif_pos h, Option.some_inj, ix1_eq_iff]
    exact ⟨fun h0 => congrArg Fin.val h0, fun h0 => Fin.ext h0⟩
  · rw [dif_neg h]
    constructor
    · intro e; cases e
    · intro h0; exact absurd (h0 ▸ r.isLt) h

end Entries

end Cert.LibScatterRows
-- ==== Proof.RefValue.lean ====
/-
  The reference's result, read at an index at the ideal values, is the mean of the anti-diagonals.

  The reference numbers the 1024 × 2048 positions of a batch in row-major order, labels position n with the segment
  n / 2048 + n % 2048 (its row plus its column), scatter-adds the batch's entries onto their segments, scatter-adds a
  one per position onto the segments to count them, divides, and keeps segments 1024 … 3070. At segment 1024 + k the
  first scatter holds the sum of the entries with row + column = 1024 + k and the second their number.
-/
import proofs.«117950_j42073499632165_1_alg».proof.Proof.Gen.ReferenceIdeal.Read
import proofs.«117950_j42073499632165_1_alg».proof.Proof.LibScatterRows
import proofs.«117950_j42073499632165_1_alg».proof.Proof.HankelSpec

noncomputable section

namespace Cert.ReferenceIdeal.RefValue

open Cert.ReferenceIdeal Cert.ReferenceIdeal.Gen Cert.ReferenceIdeal.Read Idealize.ShloMosaic Idealize.ShloMosaic.ValueIdx
open Cert.Antidiag Cert.Hankel Cert.LibScatterRows

/-- The segment of a row-major position: its row plus its column. -/
def seg (n : Fin 2097152) : ℕ := n.val / 2048 + n.val % 2048

/-- The word holding row + column denotes that number. -/
theorem toInt_seg (n : Fin 2097152) :
    (IntOp.addi (BitVec.ofNat 32 (n.val / 2048)) (BitVec.ofNat 32 (n.val % 2048))).toInt = (seg n : ℤ) := by
  have hn := n.isLt
  unfold seg IntOp.addi
  rw [BitVec.toInt_eq_toNat_cond, BitVec.toNat_add, BitVec.toNat_ofNat, BitVec.toNat_ofNat]
  omega

/-- The first scatter's index column holds the segments. -/
theorem seg_col11 (n : Fin 2097152) : (val_main_v11 (F := Ideal) (ix2 n 0)).toInt = (seg n : ℤ) := by
  rw [val_main_v11_apply, val_main_v7_apply, val_main_v6_apply, val_main_v4_apply, val_main_v5_apply, val_main_v1_apply,
    val_main_v3_apply, val_main_v0_apply, val_main_v2_apply]
  exact toInt_seg n

/-- The second scatter's index column holds the segments. -/
theorem seg_col15 (n : Fin 2097152) : (val_main_v15 (F := Ideal) (ix2 n 0)).toInt = (seg n : ℤ) := by
  rw [val_main_v15_apply, val_main_v7_apply, val_main_v6_apply, val_main_v4_apply, val_main_v5_apply, val_main_v1_apply,
    val_main_v3_apply, val_main_v0_apply, val_main_v2_apply]
  exact toInt_seg n

/-- The sums per segment, at segment `1024 + k` and batch `b`: the anti-diagonal's sum. -/
theorem sums_apply (x : (⟨S64x1024x2048, .f32⟩ : BufTy).Contents (Elt Ideal)) (b : Fin 64) (k : Fin 2047) :
    val_main_v12 (F := Ideal) x (ix2 (⟨1024 + k.val, by omega⟩ : Fin 3071) b) = diagSum x b k := by
  have hb := b.isLt
  unfold val_main_v12
  refine (scatterAdd_rows_apply scatter_S3071x64_S2097152x1_S2097152x64_1_0_0_1_wf (val_main_v11 (F := Ideal)) seg seg_col11
    (val_main_v10 (F := Ideal)) (val_main_v9 (F := Ideal) x) _ b).trans ?_
  rw [val_main_v10_apply, val_main_cst_apply, Ideal.ofBits_def, Ideal.ofBits_zero_f32, zero_add]
  unfold diagSum
  rw [← sum_positions (fun i j => x (ix3 b i j)) k]
  refine Finset.sum_congr rfl fun n _ => ?_
  have hn := n.isLt
  refine if_congr Iff.rfl ?_ rfl
  rw [val_main_v9_apply, val_main_v8_apply]
  refine congrArg x (funext fun a => Fin.ext ?_)
  match a with
  | ⟨0, _⟩ => show (b.val * 2097152 + n.val) / 2097152 = b.val; omega
  | ⟨1, _⟩ => show (b.val * 2097152 + n.val) / 2048 % 1024 = n.val / 2048; omega
  | ⟨2, _⟩ => show (b.val * 2097152 + n.val) % 2048 = n.val % 2048; omega

/-- The counts per segment, at segment `1024 + k`: the anti-diagonal's number of entries. -/
theorem counts_apply (k : Fin 2047) :
    val_main_v16 (F := Ideal) (ix1 (⟨1024 + k.val, by omega⟩ : Fin 3071)) = diagCount k := by
  unfold val_main_v16
  refine (scatterAdd_entries_apply scatter_S3071_S2097152x1_S2097152_n_0_0_1_wf (val_main_v15 (F := Ideal)) seg seg_col15
    (val_main_v14 (F := Ideal)) (val_main_v13 (F := Ideal)) _).trans ?_
  rw [val_main_v14_apply, val_main_cst_1_apply, Ideal.ofBits_def, Ideal.ofBits_zero_f32, zero_add]
  unfold diagCount
  rw [← count k, ← sum_positions (fun _ _ => (1 : EReal)) k]
  refine Finset.sum_congr rfl fun n _ => ?_
  refine if_congr Iff.rfl ?_ rfl
  rw [val_main_v13_apply, val_main_cst_0_apply, Ideal.ofBits_def, ofBits_one]

/-- THE REFERENCE'S RESULT is the mean of the anti-diagonals. -/
theorem result_eq (x : (⟨S64x1024x2048, .f32⟩ : BufTy).Contents (Elt Ideal)) :
    val_main_v21 (F := Ideal) x = mean x := by
  funext j
  obtain ⟨b, k, rfl⟩ : ∃ (b : Fin 64) (k : Fin 2047), j = ix2 b k := ⟨j 0, j 1, eq_ix2 j⟩
  have hk := k.isLt
  have e1 : idx_main_v20 (idx_main_v21 (ix2 b k)) = ix2 (⟨1024 + k.val, by omega⟩ : Fin 3071) b :=
    funext fun a => by match a with | ⟨0, _⟩ => rfl | ⟨1, _⟩ => rfl
  have e2 : idx_main_v17 (idx_main_v18 (ix2 (⟨1024 + k.val, by omega⟩ : Fin 3071) b))
      = ix1 (⟨1024 + k.val, by omega⟩ : Fin 3071) :=
    funext fun a => by match a with | ⟨0, _⟩ => rfl
  rw [val_main_v21_apply, val_main_v20_apply, e1, val_main_v19_apply, val_main_v18_apply, val_main_v17_apply, e2,
    Ideal.hostDivf_def, sums_apply, counts_apply]
  rfl

end Cert.ReferenceIdeal.RefValue

end
-- ==== Proof.lean ====
/-
  The kernel program and its reference both compute, per batch, the mean of each anti-diagonal i + j = 1024 + k
  (k < 2047) of a 1024 × 2048 table.

  The kernel program skews the table on the host — row i shifted left by 1024 − i, zeros shifted in, 2047 columns kept —
  so that the anti-diagonal 1024 + k becomes column k; its kernel sums the columns; the host divides column k's sum by
  min(1024.0, float(2047 − k)). The reference labels every position with row + column, scatter-adds the entries and a
  one per entry onto their labels, divides the two, and keeps labels 1024 … 3070. At the ideal values both are
  (the sum of the entries with i + j = 1024 + k) / (their number, min(1024, 2047 − k)): sums over one finite set of
  positions taken in two orders, which agree in any commutative monoid, so nothing is asked of the inputs.

  The three frames are the generated ones (the reference's is its generated run with the result dropped); nothing was
  rewritten when the kernel program was idealized, so there is nothing to preserve.
-/
import proofs.«117950_j42073499632165_1_alg».proof.Defs
import proofs.«117950_j42073499632165_1_alg».proof.Proof.Gen.Kernel
import proofs.«117950_j42073499632165_1_alg».proof.Proof.Gen.Kernel.Frame
import proofs.«117950_j42073499632165_1_alg».proof.Proof.Gen.KernelIdeal
import proofs.«117950_j42073499632165_1_alg».proof.Proof.Gen.KernelIdeal.Frame
import proofs.«117950_j42073499632165_1_alg».proof.Proof.Gen.ReferenceIdeal
import proofs.«117950_j42073499632165_1_alg».proof.Proof.Gen.ReferenceIdeal.Run
import proofs.«117950_j42073499632165_1_alg».proof.Proof.Gen.ReferenceIdeal.Read
import proofs.«117950_j42073499632165_1_alg».proof.Proof.Gen.Pre_finite_inputs
import proofs.«117950_j42073499632165_1_alg».proof.Proof.KernelRun
import proofs.«117950_j42073499632165_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the mean of the anti-diagonals of the (agreeing) arguments. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
